-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4096 : Shape := ⟨1, ![4096]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x4096x4096 .f32) (main_arg1 : IVec S4x4096x4096 1) (main_arg2 : FVec F S4096 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4096 .f32 := Host.absf main_arg2
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  main_v8
-- ==== Kernel.lean ====
abbrev S4x4096x4096 : Shape := ⟨3, ![4, 4096, 4096]⟩
abbrev S4096 : Shape := ⟨1, ![4096]⟩
abbrev S16384x4096 : Shape := ⟨2, ![16384, 4096]⟩
abbrev S512x4096 : Shape := ⟨2, ![512, 4096]⟩
abbrev S512 : Shape := ⟨1, ![512]⟩
abbrev S512x1 : Shape := ⟨2, ![512, 1]⟩
abbrev S1x4096 : Shape := ⟨2, ![1, 4096]⟩

abbrev nBuf : Space → Nat
  | .hbm => 8
  | .vmem => 7
  | .smem => 0
  | _ => 0

abbrev bufTy : (tb : Table) → Fin (tcTables nBuf tb) → BufTy
  | .hbm, ⟨0, _⟩ => ⟨S4x4096x4096, .f32⟩
  | .hbm, ⟨1, _⟩ => ⟨S4x4096x4096, .i1⟩
  | .hbm, ⟨2, _⟩ => ⟨S4096, .f32⟩
  | .hbm, ⟨3, _⟩ => ⟨S16384x4096, .f32⟩
  | .hbm, ⟨4, _⟩ => ⟨S16384x4096, .i1⟩
  | .hbm, ⟨5, _⟩ => ⟨S16384x4096, .i32⟩
  | .hbm, ⟨6, _⟩ => ⟨S16384x4096, .f32⟩
  | .hbm, ⟨7, _⟩ => ⟨S4x4096x4096, .f32⟩
  | .local _ .vmem, ⟨0, _⟩ => ⟨S512x4096, .f32⟩
  | .local _ .vmem, ⟨1, _⟩ => ⟨S512x4096, .f32⟩
  | .local _ .vmem, ⟨2, _⟩ => ⟨S512x4096, .i32⟩
  | .local _ .vmem, ⟨3, _⟩ => ⟨S512x4096, .i32⟩
  | .local _ .vmem, ⟨4, _⟩ => ⟨S4096, .f32⟩
  | .local _ .vmem, ⟨5, _⟩ => ⟨S512x4096, .f32⟩
  | .local _ .vmem, ⟨6, _⟩ => ⟨S512x4096, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x4096x4096_S16384x4096 : S4x4096x4096.ShapeCasts S16384x4096
  natLt_1_32 : 1 < 32
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  reduces_S512x4096_S512 : S512x4096.Reduces [1] S512
  shapeCasts_S512_S512x1 : S512.ShapeCasts S512x1
  broadcasts_S512x1_S512x4096 : S512x1.Broadcasts S512x4096
  inb_S4096_S4096_0 : ∀ a, (![0] : Fin 1 → Nat) a + S4096.size a ≤ S4096.size a
  h_S4096 : 0 < S4096.numel
  shapeCasts_S4096_S1x4096 : S4096.ShapeCasts S1x4096
  broadcasts_S1x4096_S512x4096 : S1x4096.Broadcasts S512x4096
  shapeCasts_S16384x4096_S4x4096x4096 : S16384x4096.ShapeCasts S4x4096x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .f32 = 32 ∨ (Rect.block (s := S16384x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S16384x4096.size a
  hwx0_1 : ∀ i : grid0.Coords, EltTy.bits .i32 = 32 ∨ (Rect.block (s := S16384x4096) S512x4096.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096.size a ≤ S4096.size a
  hwx0_2 : ∀ i : grid0.Coords, EltTy.bits .f32 = 32 ∨ (Rect.block (s := S4096) S4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x4096.size a ≤ S16384x4096.size a
  hwx0_3 : ∀ i : grid0.Coords, EltTy.bits .f32 = 32 ∨ (Rect.block (s := S16384x4096) S512x4096.size (cc0_transform_3 i) (hinb0_3 i)).WholeWords (EltTy.packing .f32)

variable [Facts₀]

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x4096x4096 : Shape := ⟨3, ![4, 4096, 4096]⟩
abbrev S4096 : Shape := ⟨1, ![4096]⟩
abbrev S_ : Shape := ⟨0, ![]⟩
abbrev S4x4096 : Shape := ⟨2, ![4, 4096]⟩
abbrev S4x4096x1 : Shape := ⟨3, ![4, 4096, 1]⟩
abbrev S1x1x4096 : Shape := ⟨3, ![1, 1, 4096]⟩

abbrev nBuf : Space → Nat
  | .hbm => 22
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4x4096x4096, .i1⟩
  | .hbm, ⟨2, _⟩ => ⟨S4096, .f32⟩
  | .hbm, ⟨3, _⟩ => ⟨S_, .f32⟩
  | .hbm, ⟨4, _⟩ => ⟨S4x4096x4096, .f32⟩
  | .hbm, ⟨5, _⟩ => ⟨S4x4096x4096, .f32⟩
  | .hbm, ⟨6, _⟩ => ⟨S4x4096x4096, .f32⟩
  | .hbm, ⟨7, _⟩ => ⟨S_, .f32⟩
  | .hbm, ⟨8, _⟩ => ⟨S4x4096, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S4x4096x1, .f32⟩
  | .hbm, ⟨17, _⟩ => ⟨S4x4096x4096, .f32⟩
  | .hbm, ⟨18, _⟩ => ⟨S4x4096x4096, .f32⟩
  | .hbm, ⟨19, _⟩ => ⟨S1x1x4096, .f32⟩
  | .hbm, ⟨20, _⟩ => ⟨S4x4096x4096, .f32⟩
  | .hbm, ⟨21, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]

class Facts₀ : Prop where
  bcast_S_S4x4096x4096 : S_.BroadcastsInDim S4x4096x4096 (![] : Fin 0 → Fin S4x4096x4096.rank)
  reducesTo_S4x4096x4096_S4x4096_d2 : S4x4096x4096.ReducesTo [2] S4x4096
  h_S_ : 0 < S_.numel
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x4096_0_1_2 : S4x4096x1.BroadcastsInDim S4x4096x4096 (![0, 1, 2] : Fin 3 → Fin S4x4096x4096.rank)
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)

variable [Facts₀]

class Facts : Prop extends Facts₀ where

variable [Facts]
-- ==== Proof.RowNorm.lean ====
/-
  Masked RMS normalisation of the rows of a [4, 4096, 4096] array, as one function of the three argument arrays.

  An entry of x is kept where its mask bit is one and replaced by zero elsewhere.  A row of 4096 kept entries is
  scaled by the reciprocal square root of (the sum of its squares divided by 4096, plus a small constant), and entry
  j of the scaled row is multiplied by w j:

      out (p, s, j) = w j · ( r j · rsqrt ( (Σ k, r k · r k) / 4096 + ε ) ),     r k = if mask (p, s, k) then x (p, s, k) else 0.

  All operations are the exact ones of the extended reals, so this is a definition, not an approximation; the three
  float words (0, 4096, ε) are kept as words and never evaluated.  The same function is also written over the
  flattened [16384, 4096] layout (row p · 4096 + s), with the mask given as 32-bit words (nonzero = keep).
-/
import Idealize.ShloMosaic.PureOps.Ideal.Laws
import Idealize.ShloMosaic.Lib.ValueIdx

noncomputable section

namespace Cert.MaskedRms

open Idealize.ShloMosaic Idealize.ShloMosaic.ValueIdx

/-- A row normalised: entry j of the row, times the reciprocal root of the row's mean square plus ε, times w j. -/
def rowNorm (w row : Fin 4096 → EReal) (j : Fin 4096) : EReal :=
  w j * (row j * Ideal.rsqrt (Ideal.div (∑ k : Fin 4096, row k * row k) (Ideal.ofBits .f32 0x45800000#32)
    + Ideal.ofBits .f32 0x3727C5AC#32))

/-- The kept entries of row (p, s): x where the mask bit is one, the zero word elsewhere. -/
def keptRow (x : (⟨3, ![4, 4096, 4096]⟩ : Shape).Idx → EReal) (mask : (⟨3, ![4, 4096, 4096]⟩ : Shape).Idx → BitVec 1)
    (p : Fin 4) (s : Fin 4096) (k : Fin 4096) : EReal :=
  Scalar.select (mask (ix3 p s k)) (x (ix3 p s k)) (Ideal.ofBits .f32 0x00000000#32)

/-- The result at (p, s, j). -/
def entry (x : (⟨3, ![4, 4096, 4096]⟩ : Shape).Idx → EReal) (mask : (⟨3, ![4, 4096, 4096]⟩ : Shape).Idx → BitVec 1)
    (w : (⟨1, ![4096]⟩ : Shape).Idx → EReal) (p : Fin 4) (s : Fin 4096) (j : Fin 4096) : EReal :=
  rowNorm (fun k => w (ix1 k)) (keptRow x mask p s) j

/-- The whole result array. -/
def result (x : (⟨3, ![4, 4096, 4096]⟩ : Shape).Idx → EReal) (mask : (⟨3, ![4, 4096, 4096]⟩ : Shape).Idx → BitVec 1)
    (w : (⟨1, ![4096]⟩ : Shape).Idx → EReal) : (⟨3, ![4, 4096, 4096]⟩ : Shape).Idx → EReal := fun i =>
  entry x mask w ⟨(i 0).val, (i 0).isLt⟩ ⟨(i 1).val, (i 1).isLt⟩ ⟨(i 2).val, (i 2).isLt⟩

theorem result_ix3 (x : (⟨3, ![4, 4096, 4096]⟩ : Shape).Idx → EReal) (mask : (⟨3, ![4, 4096, 4096]⟩ : Shape).Idx → BitVec 1)
    (w : (⟨1, ![4096]⟩ : Shape).Idx → EReal) (p : Fin 4) (s : Fin 4096) (j : Fin 4096) :
    result x mask w (ix3 p s j) = entry x mask w p s j := rfl

/-- The kept entries of flat row r, the mask a 32-bit word compared with zero. -/
def keptFlatRow (X : (⟨2, ![16384, 4096]⟩ : Shape).Idx → EReal) (M : (⟨2, ![16384, 4096]⟩ : Shape).Idx → BitVec 32)
    (r : Fin 16384) (k : Fin 4096) : EReal :=
  Scalar.select (IntOp.cmpi .ne (M (ix2 r k)) 0#32) (X (ix2 r k)) (Ideal.ofBits .f32 0x00000000#32)

/-- The normalisation over the flattened layout. -/
def flat (X : (⟨2, ![16384, 4096]⟩ : Shape).Idx → EReal) (M : (⟨2, ![16384, 4096]⟩ : Shape).Idx → BitVec 32)
    (w : (⟨1, ![4096]⟩ : Shape).Idx → EReal) : (⟨2, ![16384, 4096]⟩ : Shape).Idx → EReal := fun i =>
  rowNorm (fun k => w (ix1 k)) (keptFlatRow X M ⟨(i 0).val, (i 0).isLt⟩) ⟨(i 1).val, (i 1).isLt⟩

theorem flat_ix2 (X : (⟨2, ![16384, 4096]⟩ : Shape).Idx → EReal) (M : (⟨2, ![16384, 4096]⟩ : Shape).Idx → BitVec 32)
    (w : (⟨1, ![4096]⟩ : Shape).Idx → EReal) (r : Fin 16384) (j : Fin 4096) :
    flat X M w (ix2 r j) = rowNorm (fun k => w (ix1 k)) (keptFlatRow X M r) j := rfl

/-- A mask bit widened to a 32-bit word and compared with zero is the bit again. -/
theorem widened_ne_zero (b : BitVec 1) : IntOp.cmpi .ne (b.setWidth 32) 0#32 = b := by
  rcases BitVec.eq_zero_or_eq_one b with h | h <;> subst h <;> decide

/-- The flat row number of row s of slab p. -/
abbrev flatRow (p : Fin 4) (s : Fin 4096) : Fin 16384 := ⟨p.val * 4096 + s.val, by have := p.isLt; have := s.isLt; omega⟩

end Cert.MaskedRms

end
-- ==== Proof.LibRows.lean ====
/-
  Rows of a matrix read at an index, over the extended reals: a vector laid out as a column and spread over the
  columns of a matrix reads, at (i, c), the vector's entry i; the maximum and the sum along a matrix's rows, and
  along the last axis of a rank-three array, are the fold of `max` and the `Fin`-indexed sum over that row's entries.
-/
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

noncomputable section

namespace Cert.LibRows

open Idealize.ShloMosaic Idealize.ShloMosaic.ValueIdx

variable {α : Type}

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- So a vector spread over the columns of a matrix reads, at `(p, c)`, its entry `p`. -/
theorem column_spread_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

/-- Row `i` of a matrix with the column coordinate `k` put back is `(i, k)`. -/
theorem lift_row {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- Row `(p, i)` of a rank-three array with the last coordinate `k` put back is `(p, i, k)`. -/
theorem lift_last3 {n a b : ℕ} (h : (⟨3, ![n, a, b]⟩ : Shape).Reduces [2] (⟨2, ![n, a]⟩ : Shape)) (p : Fin n) (i : Fin a)
    (k : Fin ((⟨3, ![n, a, b]⟩ : Shape).size 2)) : h.lift (ix2 p i) k = ix3 p i (⟨k.val, k.isLt⟩ : Fin b) := by
  funext c; apply Fin.ext
  fin_cases c <;> rfl

/-- The maximum along a matrix's rows, folded from the accumulator's word: at row `i`, the fold of `max` over the row. -/
theorem rowMax_apply {a b : ℕ} (X : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (i : Fin a) :
    multiReduction .maximumf [1] ⟨1, ![a]⟩ X acc h hφ hacc (ix1 i)
      = (Finset.univ : Finset (Fin b)).fold max (Ideal.ofBits .f32 acc) (fun k => X (ix2 i k)) := by
  refine (Ideal.multiReduction_maximumf_single X acc h hφ hacc (ix1 i)).trans ?_
  have hf : (X ∘ h.lift (ix1 i)) = fun k : Fin b => X (ix2 i k) := funext fun k => congrArg X (lift_row h i k)
  exact congrArg (fun f => Finset.fold max (Ideal.ofBits .f32 acc) f (Finset.univ : Finset (Fin b))) hf

/-- The sum along a matrix's rows: at row `i`, the sum over the row. -/
theorem rowSum_apply {a b : ℕ} (X : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (i : Fin a) :
    multiReduction .add [1] ⟨1, ![a]⟩ X acc h hφ hacc (ix1 i) = ∑ k : Fin b, X (ix2 i k) := by
  refine (Ideal.multiReduction_add_single X acc h hφ hacc (ix1 i)).trans ?_
  exact Finset.sum_congr rfl fun k _ => congrArg X (lift_row h i k)

/-- Each row's maximum, taken once more against `c`, laid out as a column and spread over the columns: at `(p, q)`, the
    maximum of `c` and the fold of `max` over row `p`. -/
theorem spreadRowMax_apply {a b : ℕ} (X : FVec Ideal ⟨2, ![a, b]⟩ .f32) (c : Ideal .f32) (acc : BitVec 32)
    (h : (⟨2, ![a, b]⟩ : Shape).Reduces [1] (⟨1, ![a]⟩ : Shape)) (hφ : FKind.Formats .f32)
    (hacc : acc = FKind.maximumf.neutral .f32 hφ) (h1 : (⟨1, ![a]⟩ : Shape).ShapeCasts ⟨2, ![a, 1]⟩)
    (h2 : (⟨2, ![a, 1]⟩ : Shape).Broadcasts ⟨2, ![a, b]⟩) (p : Fin a) (q : Fin b) :
    broadcastTo ⟨2, ![a, b]⟩
        (shapeCast ⟨2, ![a, 1]⟩ (maximumf (broadcast ⟨1, ![a]⟩ c) (multiReduction .maximumf [1] ⟨1, ![a]⟩ X acc h hφ hacc)) h1) h2
        (ix2 p q)
      = max c ((Finset.univ : Finset (Fin b)).fold max (Ideal.ofBits .f32 acc) (fun k => X (ix2 p k))) := by
  refine (column_spread_apply _ h1 h2 p q).trans ?_
  show max c (multiReduction .maximumf [1] ⟨1, ![a]⟩ X acc h hφ hacc (ix1 p)) = _
  rw [rowMax_apply]

/-- Each row's sum laid out as a column and spread over the columns: at `(p, q)`, the sum of row `p`. -/
theorem spreadRowSum_apply {a b : ℕ} (E : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (h1 : (⟨1, ![a]⟩ : Shape).ShapeCasts ⟨2, ![a, 1]⟩)
    (h2 : (⟨2, ![a, 1]⟩ : Shape).Broadcasts ⟨2, ![a, b]⟩) (p : Fin a) (q : Fin b) :
    broadcastTo ⟨2, ![a, b]⟩ (shapeCast ⟨2, ![a, 1]⟩ (multiReduction .add [1] ⟨1, ![a]⟩ E acc h hφ hacc) h1) h2 (ix2 p q)
      = ∑ k : Fin b, E (ix2 p k) :=
  (column_spread_apply _ h1 h2 p q).trans (rowSum_apply E acc h hφ hacc p)

/-- A host reduction by `max` along the last axis of a rank-three array: at `(p, i)`, the fold of `max` from the
    initial value over that row. -/
theorem hostRowMax_apply {n a b : ℕ} {u : Shape} (X : FVec Ideal ⟨3, ![n, a, b]⟩ .f32) (init : u.Idx → Ideal .f32)
    (h' : (⟨3, ![n, a, b]⟩ : Shape).ReducesTo [2] (⟨2, ![n, a]⟩ : Shape))
    (h : (⟨3, ![n, a, b]⟩ : Shape).Reduces [2] (⟨2, ![n, a]⟩ : Shape)) (hu : 0 < u.numel) (p : Fin n) (i : Fin a) :
    Host.reduce FloatOps.maximumf X init h' hu (ix2 p i)
      = (Finset.univ : Finset (Fin b)).fold max (init (Shape.Idx.first hu)) (fun k => X (ix3 p i k)) := by
  refine (Host.reduce_eq_fold_single FloatOps.maximumf X init h' h hu (ix2 p i)).trans ?_
  have hf : (X ∘ h.lift (ix2 p i)) = fun k : Fin b => X (ix3 p i k) := funext fun k => congrArg X (lift_last3 h p i k)
  exact congrArg (fun f => Finset.fold max (init (Shape.Idx.first hu)) f (Finset.univ : Finset (Fin b))) hf

end Cert.LibRows

end
-- ==== Proof.Payload.lean ====
/-
  The kernel body's one stored value, read at an entry (p, q) of the 512 x 4096 block.

  The body keeps the block's entries where the mask word is nonzero (zero elsewhere), sums each kept row's squares
  along the row, divides by 4096, adds ε, takes the reciprocal root, spreads that column over the row, multiplies the
  kept entry by it, and multiplies by the weight vector laid along the rows.  At (p, q) this is the row
  normalisation of the kept row p, at column q.
-/
import proofs.«137250_j45011257262542_1_alg».proof.Proof.Gen.KernelIdeal.Skeleton
import proofs.«137250_j45011257262542_1_alg».proof.Proof.RowNorm
import proofs.«137250_j45011257262542_1_alg».proof.Proof.LibRows
import Idealize.ShloMosaic.Lib.ValueIdx
import Idealize.ShloMosaic.Lib.ValueLayout
import Idealize.ShloMosaic.Lib.Pipeline.Value

noncomputable section

namespace Cert.KernelIdeal.Hand

open Cert.KernelIdeal Cert.KernelIdeal.Gen Idealize.ShloMosaic Idealize.ShloMosaic.ValueIdx Cert.MaskedRms

variable (x0 : Vec Ideal S512x4096 .f32) (x1 : Vec Ideal S512x4096 .i32) (x2 : Vec Ideal S4096 .f32)

/-- The kept entries of block row p: the block's entry where the mask word is nonzero, the zero word elsewhere. -/
def keptBlockRow (p : Fin 512) (k : Fin 4096) : EReal :=
  Scalar.select (IntOp.cmpi .ne (x1 (ix2 p k)) 0#32) (x0 (ix2 p k)) (Ideal.ofBits .f32 0x00000000#32)

/-- The block with the unkept entries zeroed, as the body spells it. -/
def masked : FVec Ideal S512x4096 .f32 :=
  select (cmpi .ne (shapeCast S512x4096 x1 shapeCasts_S512x4096_S512x4096) (constantI S512x4096 32 0#32))
    (shapeCast S512x4096 x0 shapeCasts_S512x4096_S512x4096) (broadcast S512x4096 (Scalar.ofBits .f32 0x00000000#32))

/-- The sums of the kept rows' squares. -/
def rowSquares : FVec Ideal S512 .f32 :=
  multiReduction .add [1] S512 (mulf (masked x0 x1) (masked x0 x1)) 0x00000000#32 reduces_S512x4096_S512 (.inl rfl) rfl

/-- The column of row scales, as the body spells it. -/
def scaleCol : FVec Ideal S512x1 .f32 :=
  rsqrt (addf (divf (shapeCast S512x1 (rowSquares x0 x1) shapeCasts_S512_S512x1) (broadcast S512x1 (Scalar.ofBits .f32 0x45800000#32)))
    (broadcast S512x1 (Scalar.ofBits .f32 0x3727C5AC#32)))

/-- The stored value is the weight row times (the masked block times the spread scale column). -/
theorem pay_eq : k0_pay1 (F := Ideal) x0 x1 x2
    = mulf (broadcastTo S512x4096 (shapeCast S1x4096 x2 shapeCasts_S4096_S1x4096) broadcasts_S1x4096_S512x4096)
        (mulf (masked x0 x1) (broadcastTo S512x4096 (scaleCol x0 x1) broadcasts_S512x1_S512x4096)) := rfl

theorem masked_apply (p : Fin 512) (k : Fin 4096) : masked x0 x1 (ix2 p k) = keptBlockRow x0 x1 p k := by
  unfold masked keptBlockRow
  rw [shapeCast_self, shapeCast_self]
  rfl

theorem rowSquares_apply (p : Fin 512) :
    rowSquares x0 x1 (ix1 p) = ∑ k : Fin 4096, keptBlockRow x0 x1 p k * keptBlockRow x0 x1 p k :=
  (Cert.LibRows.rowSum_apply (mulf (masked x0 x1) (masked x0 x1)) 0x00000000#32 reduces_S512x4096_S512 (.inl rfl) rfl p).trans
    (Finset.sum_congr rfl fun k _ => by rw [mulf_apply, masked_apply])

theorem scaleCol_apply (p : Fin 512) :
    scaleCol x0 x1 (ix2 p (0 : Fin 1))
      = Ideal.rsqrt (Ideal.div (∑ k : Fin 4096, keptBlockRow x0 x1 p k * keptBlockRow x0 x1 p k) (Ideal.ofBits .f32 0x45800000#32)
          + Ideal.ofBits .f32 0x3727C5AC#32) := by
  have h : shapeCast S512x1 (rowSquares x0 x1) shapeCasts_S512_S512x1 (ix2 p (0 : Fin 1))
      = ∑ k : Fin 4096, keptBlockRow x0 x1 p k * keptBlockRow x0 x1 p k :=
    (Cert.LibRows.shapeCast_a_a1_apply (rowSquares x0 x1) shapeCasts_S512_S512x1 p (0 : Fin 1)).trans (rowSquares_apply x0 x1 p)
  unfold scaleCol
  show Ideal.rsqrt (Ideal.div (shapeCast S512x1 (rowSquares x0 x1) shapeCasts_S512_S512x1 (ix2 p (0 : Fin 1))) (Ideal.ofBits .f32 0x45800000#32)
      + Ideal.ofBits .f32 0x3727C5AC#32) = _
  rw [h]

/-- The stored value at (p, q): the kept row p normalised, at column q. -/
theorem pay_apply (p : Fin 512) (q : Fin 4096) :
    k0_pay1 (F := Ideal) x0 x1 x2 (ix2 p q) = rowNorm (fun k => x2 (ix1 k)) (keptBlockRow x0 x1 p) q := by
  rw [pay_eq, mulf_apply, mulf_apply, masked_apply]
  have hw : broadcastTo S512x4096 (shapeCast S1x4096 x2 shapeCasts_S4096_S1x4096) broadcasts_S1x4096_S512x4096 (ix2 p q) = x2 (ix1 q) :=
    (broadcastTo_1b_ab_apply _ broadcasts_S1x4096_S512x4096 p q).trans (shapeCast_a_1a_apply x2 shapeCasts_S4096_S1x4096 (0 : Fin 1) q)
  have hs : broadcastTo S512x4096 (scaleCol x0 x1) broadcasts_S512x1_S512x4096 (ix2 p q) = scaleCol x0 x1 (ix2 p (0 : Fin 1)) :=
    Cert.LibRows.broadcastTo_a1_ab_apply (scaleCol x0 x1) broadcasts_S512x1_S512x4096 p q
  rw [hw, hs, scaleCol_apply]
  rfl

end Cert.KernelIdeal.Hand

end
-- ==== Proof.Blocks.lean ====
/-
  From blocks to the array.  Grid point t reads rows 512 t … 512 t + 511 of the flattened x and mask (all 4096
  columns) and the whole weight vector, and writes back rows 512 t … 512 t + 511 of the output; the stored value at
  (p, q) depends on row p of the two input blocks only, so what point t writes back is rows 512 t … of ONE function
  of the flat arrays, and the 32 row blocks tile the 16384 rows.
-/
import proofs.«137250_j45011257262542_1_alg».proof.Proof.Gen.KernelIdeal.Frame
import proofs.«137250_j45011257262542_1_alg».proof.Proof.Payload
import Idealize.ShloMosaic.Lib.ValueIdx
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.ShloMosaic.ValueIdx
open Idealize.SL.Sem Cert.MaskedRms
open Idealize.ShloMosaic.Pipeline (Dat)

variable (m : (ℓ : Loc nD τ sig) → Buf (Elt Ideal) ℓ)

theorem zero2 : (![0, 0] : Fin 2 → Nat) = fun _ => 0 := funext fun a => by fin_cases a <;> rfl
theorem zero1 : (![0] : Fin 1 → Nat) = fun _ => 0 := funext fun a => by fin_cases a <;> rfl

/-- The printed block indices, decided over the 32 grid points: the row-block windows are at block row t, column
    block 0; the weight window is at block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- The function the output array ends holding: the flat normalisation of the arrays the region finds. -/
abbrev flatOut (c : Dev nD) : Buf (Elt Ideal) ((c : Thread nD τ).loc main_v3) :=
  flat (V m c main_v0) (V m c main_v2) (V m c main_arg2)

/-- Row p, column k of the x block at point t is row 512 t + p, column k of the flat x. -/
theorem xblk_apply (c : Dev nD) (t : Fin cfg0.N) (p : Fin 512) (k : Fin 4096) (r : Fin 16384) (hr : r.val = t.val * 512 + p.val) :
    (iblk m c 0 t : Vec Ideal S512x4096 .f32) (ix2 p k) = (V m c main_v0 : S16384x4096.Idx → EReal) (ix2 r k) := by
  obtain ⟨e00, e01, -⟩ := idx_facts t
  unfold iblk
  rw [View.read_apply]
  show V m c main_v0 _ = V m c main_v0 _
  refine congrArg (V m c main_v0 : S16384x4096.Idx → EReal) (funext fun a => Fin.ext ?_)
  match a with
  | ⟨0, _⟩ => show win0_0.index t (0 : Fin 2) * 512 + 1 * p.val = r.val; rw [e00, hr]; omega
  | ⟨1, _⟩ => show win0_0.index t (1 : Fin 2) * 4096 + 1 * k.val = k.val; rw [e01]; omega

/-- The same for the mask block. -/
theorem mblk_apply (c : Dev nD) (t : Fin cfg0.N) (p : Fin 512) (k : Fin 4096) (r : Fin 16384) (hr : r.val = t.val * 512 + p.val) :
    (iblk m c 1 t : Vec Ideal S512x4096 .i32) (ix2 p k) = (V m c main_v2 : S16384x4096.Idx → BitVec 32) (ix2 r k) := by
  obtain ⟨-, -, e10, e11, -⟩ := idx_facts t
  unfold iblk
  rw [View.read_apply]
  show V m c main_v2 _ = V m c main_v2 _
  refine congrArg (V m c main_v2 : S16384x4096.Idx → BitVec 32) (funext fun a => Fin.ext ?_)
  match a with
  | ⟨0, _⟩ => show win0_1.index t (0 : Fin 2) * 512 + 1 * p.val = r.val; rw [e10, hr]; omega
  | ⟨1, _⟩ => show win0_1.index t (1 : Fin 2) * 4096 + 1 * k.val = k.val; rw [e11]; omega

/-- The weight block at any point is the weight vector. -/
theorem wblk_apply (c : Dev nD) (t : Fin cfg0.N) (k : Fin 4096) :
    (iblk m c 2 t : Vec Ideal S4096 .f32) (ix1 k) = (V m c main_arg2 : S4096.Idx → EReal) (ix1 k) := by
  obtain ⟨-, -, -, -, e20, -⟩ := idx_facts t
  unfold iblk
  rw [View.read_apply]
  show V m c main_arg2 _ = V m c main_arg2 _
  refine congrArg (V m c main_arg2 : S4096.Idx → EReal) (funext fun a => Fin.ext ?_)
  match a with
  | ⟨0, _⟩ => show win0_2.index t (0 : Fin 1) * 4096 + 1 * k.val = k.val; rw [e20]; omega

/-- The stored value of blocks that are rows b · 512 … of flat arrays, at a block entry y, is the flat normalisation at
    the array entry y sits at. -/
theorem stored_eq_flat (X : S16384x4096.Idx → EReal) (M : S16384x4096.Idx → BitVec 32) (w : S4096.Idx → EReal)
    (x0 : Vec Ideal S512x4096 .f32) (x1 : Vec Ideal S512x4096 .i32) (x2 : Vec Ideal S4096 .f32) (b : Nat)
    (h0 : ∀ (p : Fin 512) (k : Fin 4096) (r : Fin 16384), r.val = b * 512 + p.val → x0 (ix2 p k) = X (ix2 r k))
    (h1 : ∀ (p : Fin 512) (k : Fin 4096) (r : Fin 16384), r.val = b * 512 + p.val → x1 (ix2 p k) = M (ix2 r k))
    (h2 : ∀ k : Fin 4096, x2 (ix1 k) = w (ix1 k))
    (y : S512x4096.Idx) (i : S16384x4096.Idx) (hi0 : (i 0).val = b * 512 + (y 0).val) (hi1 : (i 1).val = (y 1).val) :
    k0_pay1 (F := Ideal) x0 x1 x2 y = flat X M w i := by
  obtain ⟨p, q, rfl⟩ : ∃ (p : Fin 512) (q : Fin 4096), y = ix2 p q := ⟨y 0, y 1, eq_ix2 y⟩
  obtain ⟨r, j, rfl⟩ : ∃ (r : Fin 16384) (j : Fin 4096), i = ix2 r j := ⟨i 0, i 1, eq_ix2 i⟩
  have hr : r.val = b * 512 + p.val := hi0
  have hj : j = q := Fin.ext hi1
  rw [hj, pay_apply, flat_ix2]
  refine congrArg₂ (fun w' row => rowNorm w' row q) (funext h2) (funext fun k => ?_)
  unfold keptBlockRow keptFlatRow
  rw [h0 p k r hr, h1 p k r hr]

/-- WHAT POINT t WRITES BACK is block t of the flat normalisation of the arrays the region finds. -/
theorem flushed_eq (c : Dev nD) (t : Fin cfg0.N) :
    (dats m 0 c).flushed 3 t = ((cfg0.win 3).blk t).view.read (Elt Ideal) (flatOut m c) := by
  show (cfg0.win 3).cut (grid0.coords t) ((dats m 0 c).after 3 t) = _
  rw [after0_3]
  unfold out0_3
  rw [View.canon_unit_zero zero2]
  simp only [View.ld_unit_zero (S := S512x4096) zero2, View.ld_unit_zero (S := S4096) zero1]
  obtain ⟨-, -, -, -, -, e30, e31⟩ := idx_facts t
  funext y
  show k0_pay1 (F := Ideal) (iblk m c 0 t) (iblk m c 1 t) (iblk m c 2 t) y
    = flat (V m c main_v0) (V m c main_v2) (V m c main_arg2) (((cfg0.win 3).blk t).view.emb y)
  refine stored_eq_flat (V m c main_v0) (V m c main_v2) (V m c main_arg2) (iblk m c 0 t) (iblk m c 1 t) (iblk m c 2 t) t.val
    (fun p k r hr => xblk_apply m c t p k r hr) (fun p k r hr => mblk_apply m c t p k r hr) (fun k => wblk_apply m c t k) y _ ?_ ?_
  · show win0_3.index t (0 : Fin 2) * 512 + 1 * (y 0).val = t.val * 512 + (y 0).val
    rw [e30]; omega
  · show win0_3.index t (1 : Fin 2) * 4096 + 1 * (y 1).val = (y 1).val
    rw [e31]; omega

/-- An index of the output array is in point t's block iff each coordinate is in the block's range on its axis. -/
theorem mem_blk (t : Fin cfg0.N) (i : S16384x4096.Idx) :
    i ∈ ((cfg0.win 3).blk t).view.set ↔ ∀ a : Fin 2, win0_3.index t a * S512x4096.size a ≤ (i a).val ∧ (i a).val < win0_3.index t a * S512x4096.size a + S512x4096.size a := by
  show i ∈ ((View.whole main_v3).slice (win0_3.rect t)).set ↔ _
  rw [View.set_slice_whole, Rect.mem_set_unit]
  exact Iff.rfl

/-- Every row of the output is in the block of the point numbered (row / 512). -/
theorem cover (i : S16384x4096.Idx) : ∃ t : Fin cfg0.N, (cfg0.win 3).flush t = true ∧ i ∈ ((cfg0.win 3).blk t).view.set := by
  have hN : cfg0.N = 32 := N_0
  have hi0 : (i 0).val < 16384 := (i 0).isLt
  have hi1 : (i 1).val < 4096 := (i 1).isLt
  obtain ⟨t, ht⟩ : ∃ t : Fin cfg0.N, t.val = (i 0).val / 512 := ⟨⟨(i 0).val / 512, by omega⟩, rfl⟩
  obtain ⟨-, -, -, -, -, e30, e31⟩ := idx_facts t
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; rw [e30]; omega
  | ⟨1, _⟩ => show win0_3.index t (1 : Fin 2) * 4096 ≤ (i 1).val ∧ (i 1).val < win0_3.index t (1 : Fin 2) * 4096 + 4096; rw [e31]; omega

/-- THE OUTPUT ARRAY after the region: the flat normalisation of the arrays the region found. -/
theorem final (c : Dev nD) : (dats m 0 c).arrAt 3 cfg0.N = flatOut m c :=
  (dats m 0 c).arrAt_eq_of_cover 3 (flatOut m c) (fun t _ => flushed_eq m c t) cover

end Cert.KernelIdeal.Hand

end
-- ==== Proof.HostSides.lean ====
/-
  What the region finds in its operand arrays: the host lines before the call flatten x and the mask from
  [4, 4096, 4096] to [16384, 4096] (row p · 4096 + s of the flat array is row s of slab p) and widen each mask bit to
  a 32-bit word; the weight vector is passed as it is.
-/
import proofs.«137250_j45011257262542_1_alg».proof.Proof.Gen.KernelIdeal.Frame
import proofs.«137250_j45011257262542_1_alg».proof.Proof.RowNorm
import Idealize.ShloMosaic.Lib.ValueIdx
import Idealize.ShloMosaic.Lib.Pipeline.Value
import Idealize.ShloMosaic.Lib.StableHlo.Run

noncomputable section

namespace Cert.KernelIdeal.Hand

open Cert.KernelIdeal Cert.KernelIdeal.Gen Idealize.ShloMosaic Idealize.ShloMosaic.TcCoe Idealize.ShloMosaic.ValueIdx
open Idealize.SL.Sem Idealize.ShloMosaic.StableHlo Cert.MaskedRms

variable (m : (ℓ : Loc nD τ sig) → Buf (Elt Ideal) ℓ)

/-- The flattened x the region reads. -/
theorem V_x (c : Dev nD) : (V m c main_v0 : S16384x4096.Idx → EReal)
    = shapeCast S16384x4096 (m ((c : Thread nD τ).loc main_arg0) : S4x4096x4096.Idx → EReal) shapeCasts_S4x4096x4096_S16384x4096 := by
  show StableHlo.after hostOps0 (fun b => m (c, b)) (Proc.devRef .tc main_v0) = _
  after_results
  rfl

/-- The flattened, widened mask the region reads. -/
theorem V_mask (c : Dev nD) : (V m c main_v2 : S16384x4096.Idx → BitVec 32)
    = extui 32 (shapeCast S16384x4096 (m ((c : Thread nD τ).loc main_arg1) : S4x4096x4096.Idx → BitVec 1) shapeCasts_S4x4096x4096_S16384x4096) natLt_1_32 := by
  show StableHlo.after hostOps0 (fun b => m (c, b)) (Proc.devRef .tc main_v2) = _
  after_results
  rfl

/-- Entry k of flat row p · 4096 + s is x at (p, s, k). -/
theorem V_x_apply (c : Dev nD) (p : Fin 4) (s : Fin 4096) (k : Fin 4096) :
    (V m c main_v0 : S16384x4096.Idx → EReal) (ix2 (flatRow p s) k)
      = (m ((c : Thread nD τ).loc main_arg0) : S4x4096x4096.Idx → EReal) (ix3 p s k) := by
  rw [V_x]
  exact shapeCast_apply _ shapeCasts_S4x4096x4096_S16384x4096 (ix2 (flatRow p s) k) (ix3 p s k) (by
    rw [Shape.rowMajor_val_three, Shape.rowMajor_val_two]
    show (p.val * 4096 + s.val) * 4096 + k.val = (p.val * 4096 + s.val) * 4096 + k.val
    rfl)

/-- Entry k of flat mask row p · 4096 + s is the mask bit at (p, s, k), widened. -/
theorem V_mask_apply (c : Dev nD) (p : Fin 4) (s : Fin 4096) (k : Fin 4096) :
    (V m c main_v2 : S16384x4096.Idx → BitVec 32) (ix2 (flatRow p s) k)
      = ((m ((c : Thread nD τ).loc main_arg1) : S4x4096x4096.Idx → BitVec 1) (ix3 p s k)).setWidth 32 := by
  rw [V_mask, extui_apply]
  exact congrArg (fun b : BitVec 1 => b.setWidth 32) (shapeCast_apply _ shapeCasts_S4x4096x4096_S16384x4096 (ix2 (flatRow p s) k) (ix3 p s k) (by
    rw [Shape.rowMajor_val_three, Shape.rowMajor_val_two]
    show (p.val * 4096 + s.val) * 4096 + k.val = (p.val * 4096 + s.val) * 4096 + k.val
    rfl))

end Cert.KernelIdeal.Hand

end
-- ==== Proof.KernelValue.lean ====
/-
  The kernel program's result as one function of its three arguments.  The region leaves the flat normalisation of
  the flattened x, the widened flattened mask and the weight vector in its output array; the one host line after it
  reads that [16384, 4096] array back as [4, 4096, 4096].  Entry (p, s, j) of the result is entry (p · 4096 + s, j)
  of the flat array, whose row is row s of slab p of x and of the mask, and a widened mask bit compared with zero is
  the bit: so the result is the masked RMS normalisation of the arguments.
-/
import proofs.«137250_j45011257262542_1_alg».proof.Proof.Blocks
import proofs.«137250_j45011257262542_1_alg».proof.Proof.HostSides
import Idealize.ShloMosaic.Lib.StableHlo.Run

noncomputable section

namespace Cert.KernelIdeal.Hand

open Cert.KernelIdeal Cert.KernelIdeal.Gen Idealize.ShloMosaic Idealize.ShloMosaic.TcCoe Idealize.ShloMosaic.ValueIdx
open Idealize.SL.Sem Idealize.ShloMosaic.StableHlo Cert.MaskedRms
open Idealize.ShloMosaic.Pipeline (Dat)

variable (m : (ℓ : Loc nD τ sig) → Buf (Elt Ideal) ℓ) (ρ : Dev nD → PrngReg)

/-- The program's result buffer after the host line that follows the region: the region's output array read back
    at the result's shape. -/
theorem tail_eq (c : Dev nD) :
    Pipeline.afterTail₀ cfgs (dats m) 0 (V0 m) [hostOps1] c main_v4
      = shapeCast S4x4096x4096 (flatOut m c : S16384x4096.Idx → EReal) shapeCasts_S16384x4096_S4x4096x4096 := by
  have e : Pipeline.withArrays (cfgs 0).spec c (V0 m c) (fun w => (dats m 0 c).arrAt w (cfgs 0).N) (Proc.devRef .tc main_v3) = flatOut m c :=
    (Pipeline.withArrays_arr spec0 launch0.win.arr_inj c _ _ 3).trans (final m c)
  unfold Pipeline.afterTail₀
  show StableHlo.after hostOps1 _ (Proc.devRef .tc main_v4) = _
  after_results
  rw [e]
  rfl

/-- The flat normalisation read at row p · 4096 + s, column j is the masked RMS normalisation of the arguments at
    (p, s, j). -/
theorem flatOut_apply (c : Dev nD) (p : Fin 4) (s : Fin 4096) (j : Fin 4096) :
    (flatOut m c : S16384x4096.Idx → EReal) (ix2 (flatRow p s) j)
      = entry (m ((c : Thread nD τ).loc main_arg0)) (m ((c : Thread nD τ).loc main_arg1)) (m ((c : Thread nD τ).loc main_arg2)) p s j := by
  show flat (V m c main_v0) (V m c main_v2) (V m c main_arg2) (ix2 (flatRow p s) j) = _
  rw [flat_ix2]
  unfold entry
  refine congrArg₂ (fun w' row => rowNorm w' row j) (funext fun k => ?_) (funext fun k => ?_)
  · rw [V_main_arg2]
  · unfold keptFlatRow keptRow
    rw [V_x_apply, V_mask_apply, widened_ne_zero]

/-- The program's result is the masked RMS normalisation of its arguments. -/
theorem result_eq (c : Dev nD) :
    shapeCast S4x4096x4096 (flatOut m c : S16384x4096.Idx → EReal) shapeCasts_S16384x4096_S4x4096x4096
      = result (m ((c : Thread nD τ).loc main_arg0)) (m ((c : Thread nD τ).loc main_arg1)) (m ((c : Thread nD τ).loc main_arg2)) := by
  funext i
  obtain ⟨p, s, j, rfl⟩ : ∃ (p : Fin 4) (s : Fin 4096) (j : Fin 4096), i = ix3 p s j := ⟨i 0, i 1, i 2, eq_ix3 i⟩
  rw [result_ix3]
  refine (shapeCast_apply _ shapeCasts_S16384x4096_S4x4096x4096 (ix3 p s j) (ix2 (flatRow p s) j) (by
    rw [Shape.rowMajor_val_three, Shape.rowMajor_val_two]
    show (p.val * 4096 + s.val) * 4096 + j.val = (p.val * 4096 + s.val) * 4096 + j.val
    rfl)).trans ?_
  exact flatOut_apply m c p s j

/-- The kernel program's run, read: it terminates with the result buffer at the masked RMS normalisation of the
    arguments, and the arguments as they were. -/
theorem run : θ_run defs (onTc (τ := τ) (main (F := Ideal))) ⟨m, fun _ => 0, ρ⟩ fun r => ∀ c : Dev nD,
      r.2.mem ((c : Thread nD τ).loc main_v4)
        = result (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
      ⟨((h c).2 main_v4 (Pipeline.mem_restRefs_of main_v4 (by decide) (by decide))).trans ((tail_eq m c).trans (result_eq m c)),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).1 2).trans (((dats m 0 c).arrAt_in 2 rfl _).trans ((A_eq m c 2).trans (V_main_arg2 m c)))⟩)
    (run_main m ρ)

end Cert.KernelIdeal.Hand

end
-- ==== Proof.RefValue.lean ====
/-
  The reference program's result is the masked RMS normalisation of its arguments: read one operation at a time, entry
  (p, s, j) of its last product is w j times (the kept entry times the reciprocal root of (0 + the sum over k of the
  kept row's squares) / 4096 + ε); the zero word the sum starts from is the extended real 0.
-/
import proofs.«137250_j45011257262542_1_alg».proof.Proof.Gen.ReferenceIdeal.Read
import proofs.«137250_j45011257262542_1_alg».proof.Proof.RowNorm
import Idealize.ShloMosaic.Lib.ValueIdx
import Idealize.ShloMosaic.PureOps.Ideal.Laws

noncomputable section

namespace Cert.ReferenceIdeal.Hand

open Cert.ReferenceIdeal Cert.ReferenceIdeal.Read Idealize.ShloMosaic Idealize.ShloMosaic.ValueIdx Cert.MaskedRms

/-- The weight index the two row broadcasts read at (p, s, j) is j. -/
theorem widx (p : Fin 4) (s : Fin 4096) (j : Fin 4096) : idx_main_v11 (idx_main_v12 (ix3 p s j)) = ix1 j :=
  funext fun a => Fin.ext (by match a with | ⟨0, _⟩ => rfl)

/-- The entry the row sum adds at step k, for the scale read at (p, s, j), is (p, s, k). -/
theorem ridx (p : Fin 4) (s : Fin 4096) (j k : Fin 4096) :
    idx_main_v2 (idx_main_v3 (idx_main_v9 (ix3 p s j))) k = ix3 p s k :=
  funext fun a => Fin.ext (by match a with | ⟨0, _⟩ => rfl | ⟨1, _⟩ => rfl | ⟨2, _⟩ => rfl)

theorem ref_eq (x : (⟨S4x4096x4096, .f32⟩ : BufTy).Contents (Elt Ideal)) (mk : (⟨S4x4096x4096, .i1⟩ : BufTy).Contents (Elt Ideal))
    (w : (⟨S4096, .f32⟩ : BufTy).Contents (Elt Ideal)) :
    val_main_v13 (F := Ideal) x mk w = result x mk w := by
  funext i
  obtain ⟨p, s, j, rfl⟩ : ∃ (p : Fin 4) (s : Fin 4096) (j : Fin 4096), i = ix3 p s j := ⟨i 0, i 1, i 2, eq_ix3 i⟩
  rw [result_ix3, val_main_v13_apply, val_main_v12_apply, val_main_v11_apply, val_main_v10_apply, val_main_v9_apply,
    val_main_v8_apply, val_main_v7_apply, val_main_v6_apply, val_main_cst_2_apply, val_main_v5_apply, val_main_v4_apply,
    val_main_cst_1_apply, val_main_v3_apply, val_main_v2_apply, val_main_cst_0_apply, widx]
  simp only [ridx, val_main_v1_apply, val_main_v0_apply, val_main_call0_v0_apply, val_main_cst_apply]
  unfold entry rowNorm keptRow
  simp only [Ideal.mulf_def, Ideal.addf_def, Ideal.hostDivf_def, Ideal.hostUnary_rsqrt_def, Ideal.ofBits_def,
    Ideal.ofBits_zero_f32, zero_add]

end Cert.ReferenceIdeal.Hand

end
-- ==== Proof.lean ====
/-
  The kernel normalises the rows of a masked [4, 4096, 4096] array: on the flattened [16384, 4096] layout, 512 rows
  per grid point, each kept row (x where the mask is set, zero elsewhere) is scaled by the reciprocal square root of
  its mean square plus ε and multiplied by the weight vector.  The reference does the same on the unflattened array.
  At the extended reals both are ONE function of the arguments (Proof/RowNorm.lean): the kernel's result array is
  read off its frame run (Proof/Payload.lean: the stored value at an entry; Proof/Blocks.lean: the 32 row blocks tile
  the flat array; Proof/HostSides.lean and Proof/KernelValue.lean: the flattening before and after the region), the
  reference's off its run one operation at a time (Proof/RefValue.lean).  The two sums run over the same entries in
  the same order of terms, the literals are the same words, and division and reciprocal root are the same functions on
  both sides: no algebraic law beyond 0 + s = s is used, and the precondition is never opened.  The kernel's
  idealization rewrote nothing, so it is the kernel's own text read at the extended reals.
-/
import proofs.«137250_j45011257262542_1_alg».proof.Defs
import proofs.«137250_j45011257262542_1_alg».proof.Proof.Gen.Kernel
import proofs.«137250_j45011257262542_1_alg».proof.Proof.Gen.Kernel.Skeleton
import proofs.«137250_j45011257262542_1_alg».proof.Proof.Gen.Kernel.Launch
import proofs.«137250_j45011257262542_1_alg».proof.Proof.Gen.Kernel.Points
import proofs.«137250_j45011257262542_1_alg».proof.Proof.Gen.Kernel.Frame
import proofs.«137250_j45011257262542_1_alg».proof.Proof.Gen.KernelIdeal
import proofs.«137250_j45011257262542_1_alg».proof.Proof.Gen.KernelIdeal.Skeleton
import proofs.«137250_j45011257262542_1_alg».proof.Proof.Gen.KernelIdeal.Launch
import proofs.«137250_j45011257262542_1_alg».proof.Proof.Gen.KernelIdeal.Points
import proofs.«137250_j45011257262542_1_alg».proof.Proof.Gen.KernelIdeal.Frame
import proofs.«137250_j45011257262542_1_alg».proof.Proof.Gen.ReferenceIdeal
import proofs.«137250_j45011257262542_1_alg».proof.Proof.Gen.Pre_finite_inputs
import proofs.«137250_j45011257262542_1_alg».proof.Proof.Gen.ReferenceIdeal.Run
import proofs.«137250_j45011257262542_1_alg».proof.Proof.Gen.ReferenceIdeal.Read
import proofs.«137250_j45011257262542_1_alg».proof.Proof.KernelValue
import proofs.«137250_j45011257262542_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference's run, its result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten. -/
theorem preserves : Cert.preserves_Kernel_KernelIdeal := trivial

/-- Both programs end with their result at the masked RMS normalisation of the arguments they agree on. -/
theorem algebraic : Cert.algebraic_KernelIdeal_ReferenceIdeal := by
  intro m ρ m' ρ' _ hagree
  refine ⟨fun c => Cert.MaskedRms.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Hand.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v13_eq, Cert.ReferenceIdeal.Hand.ref_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
